-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S73728 : Shape := ⟨1, ![73728]⟩
abbrev S8192 : Shape := ⟨1, ![8192]⟩
abbrev S8192x8192 : Shape := ⟨2, ![8192, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S73728 : S_.BroadcastsInDim S73728 (![] : Fin 0 → Fin S73728.rank)
  reducesTo_S73728_S_d0 : S73728.ReducesTo [0] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg6 : FVec F S8192x8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192x8192 .f32 := Host.absf main_arg6
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  main_v23

def fn {F : FTy → Type} [FloatOps F] (main_arg0 : FVec F S64x8192 .f32) (main_arg1 : IVec S73728 32) (main_arg2 : IVec S73728 32) (main_arg3 : FVec F S73728 .f32) (main_arg4 : FVec F S8192 .f32) (main_arg5 : FVec F S8192 .f32) (main_arg6 : FVec F S8192x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S73728 .f32 := Host.absf main_arg3
  let main_cst_0 : FVec F S_ .f32 := constant S_ .f32 0x7F800000#32
  let main_v5 : FVec F S73728 .f32 := broadcastInDim S73728 ![] bcast_S_S73728 main_cst_0
  let main_v6 : IVec S73728 1 := cmpf .olt main_v4 main_v5
  let main_c_1 : IVec S_ 1 := constantI S_ 1 1#1
  let main_v7 : IVec S_ 1 := (fun x v => Host.reduce IntOp.andi x v reducesTo_S73728_S_d0 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg5
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg6 main_v13 main_v16
-- ==== Kernel.lean ====
abbrev S64x8192 : Shape := ⟨2, ![64, 8192]⟩
abbrev S73728 : Shape := ⟨1, ![73728]⟩
abbrev S8192 : Shape := ⟨1, ![8192]⟩
abbrev S8192x8192 : Shape := ⟨2, ![8192, 8192]⟩
abbrev S_ : Shape := ⟨0, ![]⟩
abbrev S73728x1 : Shape := ⟨2, ![73728, 1]⟩
abbrev S64x73728 : Shape := ⟨2, ![64, 73728]⟩
abbrev S1x73728 : Shape := ⟨2, ![1, 73728]⟩
abbrev S1x8192 : Shape := ⟨2, ![1, 8192]⟩
abbrev S64x2048 : Shape := ⟨2, ![64, 2048]⟩
abbrev S2048x2048 : Shape := ⟨2, ![2048, 2048]⟩
abbrev S1x2048 : Shape := ⟨2, ![1, 2048]⟩

abbrev nBuf : Space → Nat
  | .hbm => 39
  | .vmem => 11
  | .smem => 0
  | _ => 0

abbrev bufTy : (tb : Table) → Fin (tcTables nBuf tb) → BufTy
  | .hbm, ⟨0, _⟩ => ⟨S64x8192, .f32⟩
  | .hbm, ⟨1, _⟩ => ⟨S73728, .i32⟩
  | .hbm, ⟨2, _⟩ => ⟨S73728, .i32⟩
  | .hbm, ⟨3, _⟩ => ⟨S73728, .f32⟩
  | .hbm, ⟨4, _⟩ => ⟨S8192, .f32⟩
  | .hbm, ⟨5, _⟩ => ⟨S8192, .f32⟩
  | .hbm, ⟨6, _⟩ => ⟨S8192x8192, .f32⟩
  | .hbm, ⟨7, _⟩ => ⟨S_, .i32⟩
  | .hbm, ⟨8, _⟩ => ⟨S73728, .i32⟩
  | .hbm, ⟨9, _⟩ => ⟨S73728, .i1⟩
  | .hbm, ⟨10, _⟩ => ⟨S_, .i32⟩
  | .hbm, ⟨11, _⟩ => ⟨S73728, .i32⟩
  | .hbm, ⟨12, _⟩ => ⟨S73728, .i32⟩
  | .hbm, ⟨13, _⟩ => ⟨S73728, .i32⟩
  | .hbm, ⟨14, _⟩ => ⟨S73728x1, .i32⟩
  | .hbm, ⟨15, _⟩ => ⟨S64x73728, .f32⟩
  | .hbm, ⟨16, _⟩ => ⟨S1x73728, .f32⟩
  | .hbm, ⟨17, _⟩ => ⟨S64x73728, .f32⟩
  | .hbm, ⟨18, _⟩ => ⟨S64x73728, .f32⟩
  | .hbm, ⟨19, _⟩ => ⟨S_, .f32⟩
  | .hbm, ⟨20, _⟩ => ⟨S64x8192, .f32⟩
  | .hbm, ⟨21, _⟩ => ⟨S_, .i32⟩
  | .hbm, ⟨22, _⟩ => ⟨S73728, .i32⟩
  | .hbm, ⟨23, _⟩ => ⟨S73728, .i1⟩
  | .hbm, ⟨24, _⟩ => ⟨S_, .i32⟩
  | .hbm, ⟨25, _⟩ => ⟨S73728, .i32⟩
  | .hbm, ⟨26, _⟩ => ⟨S73728, .i32⟩
  | .hbm, ⟨27, _⟩ => ⟨S73728, .i32⟩
  | .hbm, ⟨28, _⟩ => ⟨S73728x1, .i32⟩
  | .hbm, ⟨29, _⟩ => ⟨S64x8192, .f32⟩
  | .hbm, ⟨30, _⟩ => ⟨S1x8192, .f32⟩
  | .hbm, ⟨31, _⟩ => ⟨S1x8192, .f32⟩
  | .hbm, ⟨32, _⟩ => ⟨S64x8192, .f32⟩
  | .hbm, ⟨33, _⟩ => ⟨S64x8192, .f32⟩
  | .hbm, ⟨34, _⟩ => ⟨S64x8192, .f32⟩
  | .hbm, ⟨35, _⟩ => ⟨S64x8192, .f32⟩
  | .hbm, ⟨36, _⟩ => ⟨S1x8192, .f32⟩
  | .hbm, ⟨37, _⟩ => ⟨S1x8192, .f32⟩
  | .hbm, ⟨38, _⟩ => ⟨S64x8192, .f32⟩
  | .local _ .vmem, ⟨0, _⟩ => ⟨S64x2048, .f32⟩
  | .local _ .vmem, ⟨1, _⟩ => ⟨S64x2048, .f32⟩
  | .local _ .vmem, ⟨2, _⟩ => ⟨S2048x2048, .f32⟩
  | .local _ .vmem, ⟨3, _⟩ => ⟨S2048x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S73728 : S_.BroadcastsInDim S73728 (![] : Fin 0 → Fin S73728.rank)
  bcast_S73728_S73728x1_0 : S73728.BroadcastsInDim S73728x1 (![0] : Fin 1 → Fin S73728x1.rank)
  bcast_S73728_S1x73728_1 : S73728.BroadcastsInDim S1x73728 (![1] : Fin 1 → Fin S1x73728.rank)
  bcast_S1x73728_S64x73728_0_1 : S1x73728.BroadcastsInDim S64x73728 (![0, 1] : Fin 2 → Fin S64x73728.rank)
  bcast_S_S64x8192 : S_.BroadcastsInDim S64x8192 (![] : Fin 0 → Fin S64x8192.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  shapeCasts_S8192_S1x8192 : S8192.ShapeCasts S1x8192
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  gather_S64x8192_S73728x1_S64x73728_0_1_n_n_1_1_641_wf : GatherDims.WF S64x8192 S73728x1 S64x73728 [0] [1] [] [1] [] 1 ![64, 1]
  scatter_S64x8192_S73728x1_S64x73728_0_1_1_1_wf : ScatterDims.WF S64x8192 S73728x1 S64x73728 [0] [1] [1] 1
  dot_S64x2048_S2048x2048_S64x2048_1_1_0_0_n_n_wf : DotDims.WF S64x2048 S2048x2048 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x8192.size a
  hwx0_0 : ∀ i : grid0.Coords, EltTy.bits .f32 = 32 ∨ (Rect.block (s := S64x8192) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x8192.size a
  hwx0_1 : ∀ i : grid0.Coords, EltTy.bits .f32 = 32 ∨ (Rect.block (s := S8192x8192) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x8192.size a
  hwx0_4 : ∀ i : grid0.Coords, EltTy.bits .f32 = 32 ∨ (Rect.block (s := S64x8192) S64x2048.size (cc0_transform_4 i) (hinb0_4 i)).WholeWords (EltTy.packing .f32)

variable [Facts₀]

def gather_S64x8192_S73728x1_S64x73728_0_1_n_n_1_1_641 : GatherDims S64x8192 S73728x1 S64x73728 where
  offsetDims := [0]
  collapsedSliceDims := [1]
  operandBatchingDims := []
  startIndicesBatchingDims := []
  startIndexMap := [1]
  indexVectorDim := 1
  sliceSizes := ![64, 1]
  wf := gather_S64x8192_S73728x1_S64x73728_0_1_n_n_1_1_641_wf
def scatter_S64x8192_S73728x1_S64x73728_0_1_1_1 : ScatterDims S64x8192 S73728x1 S64x73728 where
  updateWindowDims := [0]
  insertedWindowDims := [1]
  scatterDimsToOperandDims := [1]
  indexVectorDim := 1
  wf := scatter_S64x8192_S73728x1_S64x73728_0_1_1_1_wf
def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf

abbrev win0_0 : Pipeline.Window sig grid0 :=
  Pipeline.Window.ofSpec (Memref.whole main_v23) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x8192 : Shape := ⟨2, ![64, 8192]⟩
abbrev S73728 : Shape := ⟨1, ![73728]⟩
abbrev S8192 : Shape := ⟨1, ![8192]⟩
abbrev S8192x8192 : Shape := ⟨2, ![8192, 8192]⟩
abbrev S_ : Shape := ⟨0, ![]⟩
abbrev S73728x1 : Shape := ⟨2, ![73728, 1]⟩
abbrev S64x73728 : Shape := ⟨2, ![64, 73728]⟩
abbrev S1x73728 : Shape := ⟨2, ![1, 73728]⟩
abbrev S1x8192 : Shape := ⟨2, ![1, 8192]⟩

abbrev nBuf : Space → Nat
  | .hbm => 44
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S73728, .i32⟩
  | .hbm, ⟨2, _⟩ => ⟨S73728, .i32⟩
  | .hbm, ⟨3, _⟩ => ⟨S73728, .f32⟩
  | .hbm, ⟨4, _⟩ => ⟨S8192, .f32⟩
  | .hbm, ⟨5, _⟩ => ⟨S8192, .f32⟩
  | .hbm, ⟨6, _⟩ => ⟨S8192x8192, .f32⟩
  | .hbm, ⟨7, _⟩ => ⟨S_, .i32⟩
  | .hbm, ⟨8, _⟩ => ⟨S73728, .i32⟩
  | .hbm, ⟨9, _⟩ => ⟨S73728, .i1⟩
  | .hbm, ⟨10, _⟩ => ⟨S_, .i32⟩
  | .hbm, ⟨11, _⟩ => ⟨S73728, .i32⟩
  | .hbm, ⟨12, _⟩ => ⟨S73728, .i32⟩
  | .hbm, ⟨13, _⟩ => ⟨S73728, .i32⟩
  | .hbm, ⟨14, _⟩ => ⟨S73728x1, .i32⟩
  | .hbm, ⟨15, _⟩ => ⟨S64x73728, .f32⟩
  | .hbm, ⟨16, _⟩ => ⟨S1x73728, .f32⟩
  | .hbm, ⟨17, _⟩ => ⟨S64x73728, .f32⟩
  | .hbm, ⟨18, _⟩ => ⟨S64x73728, .f32⟩
  | .hbm, ⟨19, _⟩ => ⟨S_, .f32⟩
  | .hbm, ⟨20, _⟩ => ⟨S64x8192, .f32⟩
  | .hbm, ⟨21, _⟩ => ⟨S_, .i32⟩
  | .hbm, ⟨22, _⟩ => ⟨S73728, .i32⟩
  | .hbm, ⟨23, _⟩ => ⟨S73728, .i1⟩
  | .hbm, ⟨24, _⟩ => ⟨S_, .i32⟩
  | .hbm, ⟨25, _⟩ => ⟨S73728, .i32⟩
  | .hbm, ⟨26, _⟩ => ⟨S73728, .i32⟩
  | .hbm, ⟨27, _⟩ => ⟨S73728, .i32⟩
  | .hbm, ⟨28, _⟩ => ⟨S73728x1, .i32⟩
  | .hbm, ⟨29, _⟩ => ⟨S64x8192, .f32⟩
  | .hbm, ⟨30, _⟩ => ⟨S1x8192, .f32⟩
  | .hbm, ⟨31, _⟩ => ⟨S1x8192, .f32⟩
  | .hbm, ⟨32, _⟩ => ⟨S64x8192, .f32⟩
  | .hbm, ⟨33, _⟩ => ⟨S64x8192, .f32⟩
  | .hbm, ⟨34, _⟩ => ⟨S64x8192, .f32⟩
  | .hbm, ⟨35, _⟩ => ⟨S64x8192, .f32⟩
  | .hbm, ⟨36, _⟩ => ⟨S8192x8192, .f32⟩
  | .hbm, ⟨37, _⟩ => ⟨S64x8192, .f32⟩
  | .hbm, ⟨38, _⟩ => ⟨S1x8192, .f32⟩
  | .hbm, ⟨39, _⟩ => ⟨S1x8192, .f32⟩
  | .hbm, ⟨40, _⟩ => ⟨S64x8192, .f32⟩
  | .hbm, ⟨41, _⟩ => ⟨S64x8192, .f32⟩
  | .hbm, ⟨42, _⟩ => ⟨S64x8192, .f32⟩
  | .hbm, ⟨43, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S_S73728 : S_.BroadcastsInDim S73728 (![] : Fin 0 → Fin S73728.rank)
  bcast_S73728_S73728x1_0 : S73728.BroadcastsInDim S73728x1 (![0] : Fin 1 → Fin S73728x1.rank)
  bcast_S73728_S1x73728_1 : S73728.BroadcastsInDim S1x73728 (![1] : Fin 1 → Fin S1x73728.rank)
  bcast_S1x73728_S64x73728_0_1 : S1x73728.BroadcastsInDim S64x73728 (![0, 1] : Fin 2 → Fin S64x73728.rank)
  bcast_S_S64x8192 : S_.BroadcastsInDim S64x8192 (![] : Fin 0 → Fin S64x8192.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  transposes_S8192x8192_S8192x8192_1_0 : S8192x8192.Transposes [1, 0] S8192x8192
  gather_S64x8192_S73728x1_S64x73728_0_1_n_n_1_1_641_wf : GatherDims.WF S64x8192 S73728x1 S64x73728 [0] [1] [] [1] [] 1 ![64, 1]
  scatter_S64x8192_S73728x1_S64x73728_0_1_1_1_wf : ScatterDims.WF S64x8192 S73728x1 S64x73728 [0] [1] [1] 1
  dot_S64x8192_S8192x8192_S64x8192_1_0_0_1_n_n_wf : DotDims.WF S64x8192 S8192x8192 S64x8192 [1] [0] [0] [1] [] []

variable [Facts₀]

def gather_S64x8192_S73728x1_S64x73728_0_1_n_n_1_1_641 : GatherDims S64x8192 S73728x1 S64x73728 where
  offsetDims := [0]
  collapsedSliceDims := [1]
  operandBatchingDims := []
  startIndicesBatchingDims := []
  startIndexMap := [1]
  indexVectorDim := 1
  sliceSizes := ![64, 1]
  wf := gather_S64x8192_S73728x1_S64x73728_0_1_n_n_1_1_641_wf
def scatter_S64x8192_S73728x1_S64x73728_0_1_1_1 : ScatterDims S64x8192 S73728x1 S64x73728 where
  updateWindowDims := [0]
  insertedWindowDims := [1]
  scatterDimsToOperandDims := [1]
  indexVectorDim := 1
  wf := scatter_S64x8192_S73728x1_S64x73728_0_1_1_1_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.PointLeaves.lean ====
/-
  What the body leaves behind at a grid point, case by case, as pure functions of the blocks it loads.

  The body runs in one of three ways.  At the first point of a run of four (contraction tile 0) it clears the
  accumulator and then adds the tile's partial product to the cleared block; at the two middle points it adds the
  tile's partial product to what the point before left; at the last point (contraction tile 3) it does the same and
  then writes the output block: the row vector `bc` plus the finished accumulator times the row vector `flag`.
  Each statement below reads the stores one case makes back as the value they store, for any float instance.
-/
import proofs.«114506_j4913442587015_1_alg».proof.Proof.Gen.KernelIdeal.Frame
import Idealize.ShloMosaic.Lib.Pipeline.Value
import Idealize.ShloMosaic.Lib.Tactic

set_option maxRecDepth 16384

noncomputable section

namespace Cert.KernelIdeal.PointLeaves

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point of a run: the accumulator ends at the tile's partial product added to the cleared block. -/
theorem acc_first (c : Dev nD) (i : grid0.Coords) (a2 : Memref sig .tc .vmem S64x2048 .f32) (h2 : a2.IsWhole) (a3 : Memref sig .tc .vmem S2048x2048 .f32) (h3 : a3.IsWhole) (a4 : Memref sig .tc .vmem S1x2048 .f32) (h4 : a4.IsWhole) (a5 : Memref sig .tc .vmem S1x2048 .f32) (h5 : a5.IsWhole) (a6 : Memref sig .tc .vmem S64x2048 .f32) (h6 : a6.IsWhole) (a7 : Memref sig .tc .vmem S64x2048 .f32) (h7 : a7.IsWhole) (hc0 : cond0_0 i) (hc1 : ¬cond0_1 i)
    (x0 : Vec F S64x2048 .f32) (x1 : Vec F S2048x2048 .f32) (x2 : Vec F S1x2048 .f32) (x3 : Vec F S1x2048 .f32) :
    sout0_A_0 c i a2 h2 a3 h3 a4 h4 a5 h5 a6 h6 a7 h7 hc0 hc1 x0 x1 x2 x3 = k0_pay2 x0 x1 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S64x2048) hz, View.readCov_unit_zero (S := S64x2048) _ hz]
  simp only [View.readAt_eq_ld, h2.read_unread, h3.read_unread, View.ld_unit_zero (S := S64x2048) hz, View.ld_unit_zero (S := S2048x2048) hz]

/-- A middle point: the accumulator ends at the tile's partial product added to what the point before left. -/
theorem acc_middle (c : Dev nD) (i : grid0.Coords) (a2 : Memref sig .tc .vmem S64x2048 .f32) (h2 : a2.IsWhole) (a3 : Memref sig .tc .vmem S2048x2048 .f32) (h3 : a3.IsWhole) (a4 : Memref sig .tc .vmem S1x2048 .f32) (h4 : a4.IsWhole) (a5 : Memref sig .tc .vmem S1x2048 .f32) (h5 : a5.IsWhole) (a6 : Memref sig .tc .vmem S64x2048 .f32) (h6 : a6.IsWhole) (a7 : Memref sig .tc .vmem S64x2048 .f32) (h7 : a7.IsWhole) (hc0 : ¬cond0_0 i) (hc1 : ¬cond0_1 i)
    (x0 : Vec F S64x2048 .f32) (x1 : Vec F S2048x2048 .f32) (x2 : Vec F S1x2048 .f32) (x3 : Vec F S1x2048 .f32) (xs0 : Vec F S64x2048 .f32) :
    sout0_B_0 c i a2 h2 a3 h3 a4 h4 a5 h5 a6 h6 a7 h7 hc0 hc1 x0 x1 x2 x3 xs0 = k0_pay2 x0 x1 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h7.read_unread, View.ld_unit_zero (S := S64x2048) hz, View.ld_unit_zero (S := S2048x2048) hz]

/-- The last point of a run: the accumulator, likewise. -/
theorem acc_last (c : Dev nD) (i : grid0.Coords) (a2 : Memref sig .tc .vmem S64x2048 .f32) (h2 : a2.IsWhole) (a3 : Memref sig .tc .vmem S2048x2048 .f32) (h3 : a3.IsWhole) (a4 : Memref sig .tc .vmem S1x2048 .f32) (h4 : a4.IsWhole) (a5 : Memref sig .tc .vmem S1x2048 .f32) (h5 : a5.IsWhole) (a6 : Memref sig .tc .vmem S64x2048 .f32) (h6 : a6.IsWhole) (a7 : Memref sig .tc .vmem S64x2048 .f32) (h7 : a7.IsWhole) (hc0 : ¬cond0_0 i) (hc1 : cond0_1 i)
    (x0 : Vec F S64x2048 .f32) (x1 : Vec F S2048x2048 .f32) (x2 : Vec F S1x2048 .f32) (x3 : Vec F S1x2048 .f32) (xs0 : Vec F S64x2048 .f32) :
    sout0_C_0 c i a2 h2 a3 h3 a4 h4 a5 h5 a6 h6 a7 h7 hc0 hc1 x0 x1 x2 x3 xs0 = k0_pay2 x0 x1 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h7.read_unread, View.ld_unit_zero (S := S64x2048) hz, View.ld_unit_zero (S := S2048x2048) hz]

/-- The last point of a run: the output block is `bc` plus the finished accumulator times `flag`. -/
theorem out_last (c : Dev nD) (i : grid0.Coords) (a2 : Memref sig .tc .vmem S64x2048 .f32) (h2 : a2.IsWhole) (a3 : Memref sig .tc .vmem S2048x2048 .f32) (h3 : a3.IsWhole) (a4 : Memref sig .tc .vmem S1x2048 .f32) (h4 : a4.IsWhole) (a5 : Memref sig .tc .vmem S1x2048 .f32) (h5 : a5.IsWhole) (a6 : Memref sig .tc .vmem S64x2048 .f32) (h6 : a6.IsWhole) (a7 : Memref sig .tc .vmem S64x2048 .f32) (h7 : a7.IsWhole) (hc0 : ¬cond0_0 i) (hc1 : cond0_1 i)
    (x0 : Vec F S64x2048 .f32) (x1 : Vec F S2048x2048 .f32) (x2 : Vec F S1x2048 .f32) (x3 : Vec F S1x2048 .f32) (xs0 : Vec F S64x2048 .f32) :
    out0_C_4 c i a2 h2 a3 h3 a4 h4 a5 h5 a6 h6 a7 h7 hc0 hc1 x0 x1 x2 x3 xs0 = k0_pay3 x2 (k0_pay2 x0 x1 xs0) x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread, View.ld_unit_zero (S := S64x2048) hz, View.ld_unit_zero (S := S2048x2048) hz, View.ld_unit_zero (S := S1x2048) hz]
  rw [View.readCov_unit_zero (S := S64x2048) _ hz]

end Cert.KernelIdeal.PointLeaves

end
-- ==== Proof.BlockArithmetic.lean ====
/-
  The body's arithmetic at one position of a block, over the extended reals.

  A block of the accumulator is [64, 2048]: position (p, q) is batch row `p`, column `q` of the output tile.  The
  cleared block is 0 everywhere.  One step adds, at (p, q), the product of row `p` of the hidden-layer block
  [64, 2048] with row `q` of the weight block [2048, 2048] — both operands are contracted along their second axis,
  so the weight block enters transposed; the narrowing of both operands to a shorter float format before the product
  is the identity on exact values, and the product starts from a zero accumulator.  The last point's output is, at
  (p, q), entry `q` of the row vector `bc` plus the accumulator at (p, q) times entry `q` of the row vector `flag`.
-/
import proofs.«114506_j4913442587015_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockArithmetic

open Cert.KernelIdeal Cert.KernelIdeal.Gen Idealize.ShloMosaic Idealize.ShloMosaic.ValueIdx

/-- The cleared block is zero at every position. -/
theorem cleared_apply (i : S64x2048.Idx) : k0_pay1 (F := Ideal) i = 0 := by
  unfold k0_pay1
  rw [shapeCast_self]
  show Ideal.ofBits .f32 0x00000000#32 = 0
  exact Ideal.ofBits_zero_f32

/-! The operand positions of the block product at output position `j` and contracted position `k`: the left operand
    is read at (j 0, k), the right at (j 1, k). -/

theorem left_row (j : S64x2048.Idx) (k : dot_S64x2048_S2048x2048_S64x2048_1_1_0_0_n_n.contr.Idx) :
    (dot_S64x2048_S2048x2048_S64x2048_1_1_0_0_n_n.lhsIdx j k 0).val = (j 0).val := by
  unfold DotDims.lhsIdx
  rw [dif_neg (show ¬(0 : Fin S64x2048.rank) ∈ dot_S64x2048_S2048x2048_S64x2048_1_1_0_0_n_n.lhsBatch by decide), dif_pos (show (0 : Fin S64x2048.rank) ∈ dot_S64x2048_S2048x2048_S64x2048_1_1_0_0_n_n.lhsNonContracting by decide)]
  rfl

theorem left_col (j : S64x2048.Idx) (k : dot_S64x2048_S2048x2048_S64x2048_1_1_0_0_n_n.contr.Idx) :
    (dot_S64x2048_S2048x2048_S64x2048_1_1_0_0_n_n.lhsIdx j k 1).val = (k ⟨0, by decide⟩).val :=
  dot_S64x2048_S2048x2048_S64x2048_1_1_0_0_n_n.lhsIdx_val_of_single rfl j k

theorem right_row (j : S64x2048.Idx) (k : dot_S64x2048_S2048x2048_S64x2048_1_1_0_0_n_n.contr.Idx) :
    (dot_S64x2048_S2048x2048_S64x2048_1_1_0_0_n_n.rhsIdx j k 0).val = (j 1).val := by
  unfold DotDims.rhsIdx
  rw [dif_neg (show ¬(0 : Fin S2048x2048.rank) ∈ dot_S64x2048_S2048x2048_S64x2048_1_1_0_0_n_n.rhsBatch by decide), dif_pos (show (0 : Fin S2048x2048.rank) ∈ dot_S64x2048_S2048x2048_S64x2048_1_1_0_0_n_n.rhsNonContracting by decide)]
  rfl

theorem right_col (j : S64x2048.Idx) (k : dot_S64x2048_S2048x2048_S64x2048_1_1_0_0_n_n.contr.Idx) :
    (dot_S64x2048_S2048x2048_S64x2048_1_1_0_0_n_n.rhsIdx j k 1).val = (k ⟨0, by decide⟩).val :=
  dot_S64x2048_S2048x2048_S64x2048_1_1_0_0_n_n.rhsIdx_val_of_single rfl j k

/-- One step at (p, q): what the accumulator held there, plus row `p` of the first block times row `q` of the second. -/
theorem step_apply (x0 : Vec Ideal S64x2048 .f32) (x1 : Vec Ideal S2048x2048 .f32) (acc : Vec Ideal S64x2048 .f32)
    (p : Fin 64) (q : Fin 2048) :
    k0_pay2 (F := Ideal) x0 x1 acc (ix2 p q) = acc (ix2 p q) + ∑ κ : Fin 2048, x0 (ix2 p κ) * x1 (ix2 q κ) := by
  unfold k0_pay2
  rw [shapeCast_self, shapeCast_self, addf_apply]
  refine congrArg (acc (ix2 p q) + ·) ?_
  unfold matmul
  rw [Ideal.matmul_constant_zero_apply, ← Equiv.sum_comp (contrEquiv1 dot_S64x2048_S2048x2048_S64x2048_1_1_0_0_n_n 2048 rfl rfl).symm]
  refine Finset.sum_congr rfl fun κ _ => ?_
  have hk := contrEquiv1_symm_val dot_S64x2048_S2048x2048_S64x2048_1_1_0_0_n_n 2048 rfl rfl κ
  have el : dot_S64x2048_S2048x2048_S64x2048_1_1_0_0_n_n.lhsIdx (ix2 p q) ((contrEquiv1 dot_S64x2048_S2048x2048_S64x2048_1_1_0_0_n_n 2048 rfl rfl).symm κ) = ix2 p κ := funext fun a => Fin.ext (by
    match a with
    | ⟨0, _⟩ => exact left_row _ _
    | ⟨1, _⟩ => exact (left_col _ _).trans hk)
  have er : dot_S64x2048_S2048x2048_S64x2048_1_1_0_0_n_n.rhsIdx (ix2 p q) ((contrEquiv1 dot_S64x2048_S2048x2048_S64x2048_1_1_0_0_n_n 2048 rfl rfl).symm κ) = ix2 q κ := funext fun a => Fin.ext (by
    match a with
    | ⟨0, _⟩ => exact right_row _ _
    | ⟨1, _⟩ => exact (right_col _ _).trans hk)
  rw [truncf_apply, truncf_apply, el, er]

/-- The output at (p, q): `bc` at `q`, plus the accumulator at (p, q) times `flag` at `q`. -/
theorem epilogue_apply (bc : Vec Ideal S1x2048 .f32) (acc : Vec Ideal S64x2048 .f32) (flag : Vec Ideal S1x2048 .f32)
    (p : Fin 64) (q : Fin 2048) :
    k0_pay3 (F := Ideal) bc acc flag (ix2 p q) = bc (ix2 0 q) + acc (ix2 p q) * flag (ix2 0 q) := by
  unfold k0_pay3
  rw [shapeCast_self, shapeCast_self, addf_apply, mulf_apply]
  have hrow : ∀ a : Fin S1x2048.rank, ((ix2 (0 : Fin 1) q : S1x2048.Idx) a).val
      = if S1x2048.size a = 1 then 0 else ((ix2 p q : S64x2048.Idx) ⟨a.val + (S64x2048.rank - S1x2048.rank), by have := a.isLt; omega⟩).val := fun a =>
    match a with
    | ⟨0, _⟩ => by show 0 = if (1 : Nat) = 1 then 0 else _; rw [if_pos rfl]
    | ⟨1, _⟩ => by show q.val = if (2048 : Nat) = 1 then 0 else q.val; rw [if_neg (by decide)]
  rw [broadcastTo_apply bc broadcasts_S1x2048_S64x2048 (ix2 p q) (ix2 0 q) hrow,
    broadcastTo_apply flag broadcasts_S1x2048_S64x2048 (ix2 p q) (ix2 0 q) hrow]

end Cert.KernelIdeal.BlockArithmetic

end
-- ==== Proof.LibBlockSum.lean ====
/-
  A finite sum taken block by block.  A sum of `A * B` terms indexed by the naturals below `A * B` is the sum, over
  the `A` consecutive blocks of length `B`, of each block's sum: term `B * s + k` is the `k`-th term of block `s`.
  Only commutativity and associativity of the addition are used, so the law holds in any commutative additive
  monoid — in particular on the extended reals, where no finiteness of the terms is needed.
-/
import Mathlib.Algebra.BigOperators.Fin
import Mathlib.Algebra.BigOperators.Intervals

namespace BlockSum

open Finset

/-- Over `Finset.range`: the `A` block sums of length `B` add up to the sum of the first `A * B` terms. -/
theorem sum_range_blocks {β : Type*} [AddCommMonoid β] (B : ℕ) (f : ℕ → β) :
    ∀ A : ℕ, ∑ s ∈ range A, ∑ k ∈ range B, f (B * s + k) = ∑ j ∈ range (A * B), f j
  | 0 => by simp
  | A + 1 => by
    rw [sum_range_succ, sum_range_blocks B f A, Nat.succ_mul, sum_range_add, Nat.mul_comm B A]

/-- The same with the position inside a block and the position in the whole sum ranging over `Fin`: the form in which
    a sum over a contracted axis of length `A * B`, split into `A` tiles of length `B`, is met. -/
theorem sum_fin_blocks {β : Type*} [AddCommMonoid β] (A B : ℕ) (f : ℕ → β) :
    ∑ s ∈ range A, ∑ k : Fin B, f (B * s + k.val) = ∑ j : Fin (A * B), f j.val := by
  rw [Fin.sum_univ_eq_sum_range (fun j => f j) (A * B), ← sum_range_blocks B f A]
  exact sum_congr rfl fun s _ => Fin.sum_univ_eq_sum_range (fun k => f (B * s + k)) B

end BlockSum
-- ==== Proof.TiledContraction.lean ====
/-
  The arithmetic that joins the two programs.

  Both compute, for a batch row `b` and an output column `n`,

      out (b, n) = bc n + (∑ k < 8192, H (b, k) · W (n, k)) · flag n,

  where `H` is the hidden layer [64, 8192], `W` the dense weights [8192, 8192] (contracted along their SECOND axis:
  the product is H · Wᵀ), and `bc`, `flag` are row vectors [1, 8192].  One program takes the contraction in one sum of
  8192 terms; the other cuts the contracted axis into four tiles of 2048, starts from zero, and adds one tile's partial
  product after another.  A sum taken tile by tile is the same sum: only commutativity and associativity of the
  addition of extended reals are used, so no entry needs to be finite.
-/
import Idealize.ShloMosaic.PureOps.Ideal
import Idealize.ShloMosaic.Lib.ValueIdx
import proofs.«114506_j4913442587015_1_alg».proof.Proof.LibBlockSum

noncomputable section

namespace TiledContraction

open Idealize.ShloMosaic Idealize.ShloMosaic.ValueIdx

/-- Position `κ` inside tile number `s mod 4` of an axis of length 8192 cut into four tiles of 2048. -/
def tileAt (s : ℕ) (κ : Fin 2048) : Fin 8192 :=
  ⟨2048 * (s % 4) + κ.val, by have := κ.isLt; have := Nat.mod_lt s (show 0 < 4 by decide); omega⟩

theorem tileAt_val (s : ℕ) (κ : Fin 2048) : (tileAt s κ).val = 2048 * (s % 4) + κ.val := rfl

/-- The whole result: the product H · Wᵀ, scaled column by column by `flag` and shifted by `bc`. -/
def affineOfProduct (H : (⟨2, ![64, 8192]⟩ : Shape).Idx → EReal) (W : (⟨2, ![8192, 8192]⟩ : Shape).Idx → EReal)
    (bc flag : (⟨2, ![1, 8192]⟩ : Shape).Idx → EReal) : (⟨2, ![64, 8192]⟩ : Shape).Idx → EReal :=
  fun i => bc (ix2 0 (i 1)) + (∑ k : Fin 8192, H (ix2 (i 0) k) * W (ix2 (i 1) k)) * flag (ix2 0 (i 1))

/-- What grid point `n` (output tile `n / 4`, contraction tile `n mod 4`) adds at position `i` of its [64, 2048] block:
    the partial product over the point's 2048 contracted positions. -/
def partialProduct (H : (⟨2, ![64, 8192]⟩ : Shape).Idx → EReal) (W : (⟨2, ![8192, 8192]⟩ : Shape).Idx → EReal)
    (n : ℕ) (i : (⟨2, ![64, 2048]⟩ : Shape).Idx) : EReal :=
  ∑ κ : Fin 2048, H (ix2 (i 0) (tileAt n κ)) * W (ix2 (tileAt (n / 4) (i 1)) (tileAt n κ))

/-- The four partial products of output tile `j` add up to the whole contraction, at every position of the block. -/
theorem sum_partialProduct (H : (⟨2, ![64, 8192]⟩ : Shape).Idx → EReal) (W : (⟨2, ![8192, 8192]⟩ : Shape).Idx → EReal)
    (j : ℕ) (i : (⟨2, ![64, 2048]⟩ : Shape).Idx) :
    ∑ s ∈ Finset.range 4, partialProduct H W (4 * j + s) i
      = ∑ k : Fin 8192, H (ix2 (i 0) k) * W (ix2 (tileAt j (i 1)) k) := by
  -- the summand as a function of a natural position, zero past the axis
  let f : ℕ → EReal := fun p =>
    if h : p < 8192 then H (ix2 (i 0) ⟨p, h⟩) * W (ix2 (tileAt j (i 1)) ⟨p, h⟩) else 0
  have hwhole : ∑ k : Fin 8192, H (ix2 (i 0) k) * W (ix2 (tileAt j (i 1)) k) = ∑ k : Fin (4 * 2048), f k.val :=
    Finset.sum_congr rfl fun k _ => by
      show _ = dite _ _ _
      rw [dif_pos k.isLt]
  have htile : ∀ s ∈ Finset.range 4, partialProduct H W (4 * j + s) i = ∑ κ : Fin 2048, f (2048 * s + κ.val) := by
    intro s hs
    have hs4 : s < 4 := Finset.mem_range.mp hs
    have hm : (4 * j + s) % 4 = s := by omega
    have hd : (4 * j + s) / 4 = j := by omega
    unfold partialProduct
    refine Finset.sum_congr rfl fun κ _ => ?_
    have hκ := κ.isLt
    have hlt : 2048 * s + κ.val < 8192 := by omega
    show _ = dite _ _ _
    rw [dif_pos hlt]
    have e1 : tileAt (4 * j + s) κ = ⟨2048 * s + κ.val, hlt⟩ := Fin.ext (by rw [tileAt_val, hm])
    have e2 : tileAt ((4 * j + s) / 4) (i 1) = tileAt j (i 1) := by rw [hd]
    rw [e1, e2]
  rw [Finset.sum_congr rfl htile, hwhole]
  exact BlockSum.sum_fin_blocks 4 2048 f

/-- The result at row `p`, column `q` of output tile `j`, written the way the tiled program reaches it: `bc` plus
    (zero plus the tile's four partial products) times `flag`. -/
theorem affineOfProduct_tile (H : (⟨2, ![64, 8192]⟩ : Shape).Idx → EReal) (W : (⟨2, ![8192, 8192]⟩ : Shape).Idx → EReal)
    (bc flag : (⟨2, ![1, 8192]⟩ : Shape).Idx → EReal) (j : ℕ) (p : Fin 64) (q : Fin 2048) :
    bc (ix2 0 (tileAt j q)) + (0 + ∑ s ∈ Finset.range 4, partialProduct H W (4 * j + s) (ix2 p q)) * flag (ix2 0 (tileAt j q))
      = affineOfProduct H W bc flag (ix2 p (tileAt j q)) := by
  rw [zero_add, sum_partialProduct H W j (ix2 p q)]
  rfl

end TiledContraction

end
-- ==== Proof.BlockPlacement.lean ====
/-
  Where each block sits in its array.

  The grid has 16 points: point `t` works on output tile `t / 4` (2048 columns of the result) and contraction tile
  `t mod 4` (2048 positions of the contracted axis).  At point `t` the hidden-layer block is all 64 rows by the
  contraction tile's columns; the weight block is the output tile's rows by the contraction tile's columns; the two
  row vectors' blocks and the output block are the output tile's columns.  Each statement reads one entry of a block as
  the entry of the array it was cut from.
-/
import proofs.«114506_j4913442587015_1_alg».proof.Proof.Gen.KernelIdeal.Value
import proofs.«114506_j4913442587015_1_alg».proof.Proof.TiledContraction
import Idealize.ShloMosaic.Lib.Pipeline.Value
import Idealize.ShloMosaic.Lib.ValueIdx

noncomputable section

namespace Cert.KernelIdeal.BlockPlacement

open Cert.KernelIdeal Cert.KernelIdeal.Gen Idealize.ShloMosaic Idealize.ShloMosaic.TcCoe Idealize.SL.Sem
open Idealize.ShloMosaic.ValueIdx TiledContraction

variable (m : (ℓ : Loc nD τ sig) → Buf (Elt Ideal) ℓ)

/-- The block numbers of the five windows at every grid point, decided over the 16 points. -/
theorem block_numbers : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4
    ∧ win0_3.index t (0 : Fin 2) = 0 ∧ win0_3.index t (1 : Fin 2) = t.val / 4
    ∧ win0_4.index t (0 : Fin 2) = 0 ∧ win0_4.index t (1 : Fin 2) = t.val / 4 :=
  (by decide +kernel : ∀ t : Fin grid0.N, _)

theorem point_lt (t : Fin cfg0.N) : t.val < 16 := lt_of_lt_of_eq t.isLt (show cfg0.N = 16 from N_0)

/-- The hidden-layer block at point `t`: row `p`, position `κ` of contraction tile `t mod 4`. -/
theorem hidden_block (c : Dev nD) (t : Fin cfg0.N) (p : Fin 64) (κ : Fin 2048) :
    (iblk m c 0 t : Vec Ideal S64x2048 .f32) (ix2 p κ)
      = (V m c main_v23 : S64x8192.Idx → EReal) (ix2 p (tileAt t.val κ)) := by
  obtain ⟨e0, e1, -⟩ := block_numbers t
  unfold iblk
  rw [View.read_apply]
  show V m c main_v23 _ = V m c main_v23 _
  refine congrArg (V m c main_v23) (funext fun a => Fin.ext ?_)
  match a with
  | ⟨0, _⟩ => show win0_0.index t (0 : Fin 2) * 64 + 1 * p.val = p.val; rw [e0]; omega
  | ⟨1, _⟩ => show win0_0.index t (1 : Fin 2) * 2048 + 1 * κ.val = 2048 * (t.val % 4) + κ.val; rw [e1]; omega

/-- The weight block at point `t`: row `q` of output tile `t / 4`, position `κ` of contraction tile `t mod 4`. -/
theorem weight_block (c : Dev nD) (t : Fin cfg0.N) (q κ : Fin 2048) :
    (iblk m c 1 t : Vec Ideal S2048x2048 .f32) (ix2 q κ)
      = (V m c main_arg6 : S8192x8192.Idx → EReal) (ix2 (tileAt (t.val / 4) q) (tileAt t.val κ)) := by
  obtain ⟨-, -, e0, e1, -⟩ := block_numbers t
  have ht := point_lt t
  unfold iblk
  rw [View.read_apply]
  show V m c main_arg6 _ = V m c main_arg6 _
  refine congrArg (V m c main_arg6) (funext fun a => Fin.ext ?_)
  match a with
  | ⟨0, _⟩ => show win0_1.index t (0 : Fin 2) * 2048 + 1 * q.val = 2048 * (t.val / 4 % 4) + q.val; rw [e0]; omega
  | ⟨1, _⟩ => show win0_1.index t (1 : Fin 2) * 2048 + 1 * κ.val = 2048 * (t.val % 4) + κ.val; rw [e1]; omega

/-- The block of the row vector `bc` at point `t`: column `q` of output tile `t / 4`. -/
theorem bc_block (c : Dev nD) (t : Fin cfg0.N) (q : Fin 2048) :
    (iblk m c 2 t : Vec Ideal S1x2048 .f32) (ix2 0 q)
      = (V m c main_v24 : S1x8192.Idx → EReal) (ix2 0 (tileAt (t.val / 4) q)) := by
  obtain ⟨-, -, -, -, e0, e1, -⟩ := block_numbers t
  have ht := point_lt t
  unfold iblk
  rw [View.read_apply]
  show V m c main_v24 _ = V m c main_v24 _
  refine congrArg (V m c main_v24) (funext fun a => Fin.ext ?_)
  match a with
  | ⟨0, _⟩ => show win0_2.index t (0 : Fin 2) * 1 + 1 * 0 = 0; rw [e0]
  | ⟨1, _⟩ => show win0_2.index t (1 : Fin 2) * 2048 + 1 * q.val = 2048 * (t.val / 4 % 4) + q.val; rw [e1]; omega

/-- The block of the row vector `flag` at point `t`: column `q` of output tile `t / 4`. -/
theorem flag_block (c : Dev nD) (t : Fin cfg0.N) (q : Fin 2048) :
    (iblk m c 3 t : Vec Ideal S1x2048 .f32) (ix2 0 q)
      = (V m c main_v25 : S1x8192.Idx → EReal) (ix2 0 (tileAt (t.val / 4) q)) := by
  obtain ⟨-, -, -, -, -, -, e0, e1, -⟩ := block_numbers t
  have ht := point_lt t
  unfold iblk
  rw [View.read_apply]
  show V m c main_v25 _ = V m c main_v25 _
  refine congrArg (V m c main_v25) (funext fun a => Fin.ext ?_)
  match a with
  | ⟨0, _⟩ => show win0_3.index t (0 : Fin 2) * 1 + 1 * 0 = 0; rw [e0]
  | ⟨1, _⟩ => show win0_3.index t (1 : Fin 2) * 2048 + 1 * q.val = 2048 * (t.val / 4 % 4) + q.val; rw [e1]; omega

/-- Position (p, q) of the output block at point `t` is row `p`, column `q` of output tile `t / 4`, of the result. -/
theorem output_position (t : Fin cfg0.N) (p : Fin 64) (q : Fin 2048) :
    (((cfg0.win 4).blk t).view.emb (ix2 p q) : S64x8192.Idx) = ix2 p (tileAt (t.val / 4) q) := by
  obtain ⟨-, -, -, -, -, -, -, -, e0, e1⟩ := block_numbers t
  have ht := point_lt t
  refine funext fun a => Fin.ext ?_
  match a with
  | ⟨0, _⟩ => show win0_4.index t (0 : Fin 2) * 64 + 1 * p.val = p.val; rw [e0]; omega
  | ⟨1, _⟩ => show win0_4.index t (1 : Fin 2) * 2048 + 1 * q.val = 2048 * (t.val / 4 % 4) + q.val; rw [e1]; omega

end Cert.KernelIdeal.BlockPlacement

end
-- ==== Proof.Accumulator.lean ====
/-
  The accumulator, point by point.

  The accumulator block [64, 2048] is cleared at the first point of each run of four grid points and stepped at the
  next three: at every point the body adds the point's partial product — row `p` of the hidden-layer block times row
  `q` of the weight block — to zero (first point) or to what the point before left.  So after point `t` it holds, at
  every position, zero plus the partial products of the points of `t`'s run up to `t`.
-/
import proofs.«114506_j4913442587015_1_alg».proof.Proof.Gen.KernelIdeal.Value
import proofs.«114506_j4913442587015_1_alg».proof.Proof.PointLeaves
import proofs.«114506_j4913442587015_1_alg».proof.Proof.BlockArithmetic
import proofs.«114506_j4913442587015_1_alg».proof.Proof.BlockPlacement
import proofs.«114506_j4913442587015_1_alg».proof.Proof.TiledContraction
import Idealize.ShloMosaic.Lib.Pipeline.Value
import Idealize.ShloMosaic.Lib.ValueIdx

noncomputable section

namespace Cert.KernelIdeal.Accumulator

open Cert.KernelIdeal Cert.KernelIdeal.Gen Idealize.ShloMosaic Idealize.ShloMosaic.TcCoe Idealize.SL.Sem
open Idealize.ShloMosaic.Pipeline (Dat)
open Idealize.ShloMosaic.ValueIdx TiledContraction
open Cert.KernelIdeal.PointLeaves Cert.KernelIdeal.BlockArithmetic Cert.KernelIdeal.BlockPlacement

variable (m : (ℓ : Loc nD τ sig) → Buf (Elt Ideal) ℓ) (ρ : Dev nD → PrngReg)

/-- The arrays the region finds, as functions on their index types. -/
abbrev hidden (c : Dev nD) : (⟨2, ![64, 8192]⟩ : Shape).Idx → EReal := V m c main_v23
abbrev weights (c : Dev nD) : (⟨2, ![8192, 8192]⟩ : Shape).Idx → EReal := V m c main_arg6
abbrev bcRow (c : Dev nD) : (⟨2, ![1, 8192]⟩ : Shape).Idx → EReal := V m c main_v24
abbrev flagRow (c : Dev nD) : (⟨2, ![1, 8192]⟩ : Shape).Idx → EReal := V m c main_v25

/-- One step at (p, q) of the block, at point `n`, over the blocks the point loads: the partial product of point `n`. -/
theorem step_is_partialProduct (c : Dev nD) (n : ℕ) (hb : n < cfg0.N) (acc : Vec Ideal S64x2048 .f32) (p : Fin 64) (q : Fin 2048) :
    k0_pay2 (F := Ideal) (iblk m c 0 (⟨n, hb⟩ : Fin cfg0.N)) (iblk m c 1 (⟨n, hb⟩ : Fin cfg0.N)) acc (ix2 p q)
      = acc (ix2 p q) + partialProduct (hidden m c) (weights m c) n (ix2 p q) := by
  refine (step_apply (iblk m c 0 (⟨n, hb⟩ : Fin cfg0.N)) (iblk m c 1 (⟨n, hb⟩ : Fin cfg0.N)) acc p q).trans ?_
  refine congrArg (acc (ix2 p q) + ·) ?_
  unfold partialProduct
  refine Finset.sum_congr rfl fun κ _ => ?_
  exact congrArg₂ (· * ·) (hidden_block m c (⟨n, hb⟩ : Fin cfg0.N) p κ) (weight_block m c (⟨n, hb⟩ : Fin cfg0.N) q κ)

/-- What point `n` leaves in the accumulator over what the point before left (`acc`), at a position of the block:
    the point's partial product added to zero at the first point of a run, to `acc` at the others. -/
theorem point_adds (c : Dev nD) (n : ℕ) (hb : n < cfg0.N) (acc : Vec Ideal S64x2048 .f32) (i : S64x2048.Idx) :
    Value.scAt0_0 m c n hb acc i
      = (if n % 4 = 0 then 0 else acc i) + partialProduct (hidden m c) (weights m c) n i := by
  obtain ⟨p, q, rfl⟩ : ∃ (p : Fin 64) (q : Fin 2048), i = ix2 p q := ⟨i 0, i 1, eq_ix2 i⟩
  unfold Value.scAt0_0
  by_cases h0 : n % 4 = 0
  · have h1 : ¬n % 4 = 3 := by omega
    rw [dif_pos h0, dif_neg h1, if_pos h0]
    refine (congrFun (acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (ix2 p q)).trans ?_
    refine (step_is_partialProduct m c n hb (k0_pay1 (F := Ideal)) p q).trans ?_
    rw [cleared_apply]
  · rw [dif_neg h0, if_neg h0]
    by_cases h1 : n % 4 = 3
    · rw [dif_pos h1]
      refine (congrFun (acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p q)).trans ?_
      exact step_is_partialProduct m c n hb acc p q
    · rw [dif_neg h1]
      refine (congrFun (acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p q)).trans ?_
      exact step_is_partialProduct m c n hb acc p q

/-- THE ACCUMULATOR after point `t`: zero plus the partial products of the points of `t`'s run up to `t`. -/
theorem accumulator_after (c : Dev nD) (t : Fin cfg0.N) (i : S64x2048.Idx) :
    (outsAt0 m c t.val t.isLt).2 i
      = 0 + ∑ s ∈ Finset.range (t.val % 4 + 1), partialProduct (hidden m c) (weights m c) (4 * (t.val / 4) + s) i := by
  rw [Value.soutsAt0_0_eq m c t]
  refine Pipeline.accAt_add_apply (fun n h => Value.scAt0_0 m c n h (VS0_0.read (Elt Ideal) VS0_0.junk)) (Value.scAt0_0 m c)
    (fun _ => 0) (fun n i => partialProduct (hidden m c) (weights m c) n i) (4 * (t.val / 4)) 3 ?_ ?_ (t.val % 4) (by omega) _ i
  · intro h i
    rw [point_adds m c _ h, if_pos (by omega)]
  · intro n h acc i hlo hhi
    rw [point_adds m c n h, if_neg (by omega)]
end Cert.KernelIdeal.Accumulator

end
-- ==== Proof.KernelResult.lean ====
/-
  What the kernel's result array holds after the run.

  At the last point of a run of four the accumulator holds zero plus the run's four partial products, which is the
  whole contraction; the output block the body writes there is `bc` plus that accumulator times `flag`, so the block
  written back is the block of `bc + (H · Wᵀ) · flag`.  The four write-backs — one per tile of 2048 output columns — tile
  the result, so the result array is that function of the arrays the region finds: the hidden layer, the weights and
  the two row vectors.
-/
import proofs.«114506_j4913442587015_1_alg».proof.Proof.Gen.KernelIdeal.Value
import proofs.«114506_j4913442587015_1_alg».proof.Proof.Accumulator
import Idealize.ShloMosaic.Lib.Pipeline.Value
import Idealize.ShloMosaic.Lib.ValueIdx

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx TiledContraction
open Cert.KernelIdeal.PointLeaves Cert.KernelIdeal.BlockArithmetic Cert.KernelIdeal.BlockPlacement
open Cert.KernelIdeal.Accumulator

variable (m : (ℓ : Loc nD τ sig) → Buf (Elt Ideal) ℓ) (ρ : Dev nD → PrngReg)

/-- The result array's contents: `bc + (H · Wᵀ) · flag` of the arrays the region finds. -/
abbrev result (c : Dev nD) : Buf (Elt Ideal) ((c : Thread nD τ).loc main_v26) :=
  affineOfProduct (hidden m c) (weights m c) (bcRow m c) (flagRow m c)

/-- The output block the last point `t` of a run stores, at position `j` of the block: the result at row `j 0`,
    column `j 1` of output tile `t / 4`. -/
theorem last_point_value (c : Dev nD) (t : Fin cfg0.N) (h0 : ¬t.val % 4 = 0) (h1 : t.val % 4 = 3) (j : S64x2048.Idx) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 j
      = affineOfProduct (hidden m c) (weights m c) (bcRow m c) (flagRow m c) (ix2 (j 0) (tileAt (t.val / 4) (j 1))) := by
  obtain ⟨p, q, rfl⟩ : ∃ (p : Fin 64) (q : Fin 2048), j = ix2 p q := ⟨j 0, j 1, eq_ix2 j⟩
  have hp : (ix2 p q : S64x2048.Idx) 0 = p := rfl
  have hq : (ix2 p q : S64x2048.Idx) 1 = q := rfl
  rw [hp, hq]
  -- the accumulator this point finishes is the one the point-by-point contents name
  have hleft : (outsAt0 m c t.val t.isLt).2 = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 := by
    simp only [outsAt0_C m c t h0 h1]
  have hacc : k0_pay2 (F := Ideal) (iblk m c 0 t) (iblk m c 1 t) (outsAt0 m c (t.val - 1) (Nat.lt_of_le_of_lt (Nat.sub_le _ _) t.isLt)).2 = (outsAt0 m c t.val t.isLt).2 :=
    ((acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm).trans hleft.symm
  refine (congrFun (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
  refine (epilogue_apply (iblk m c 2 t) (k0_pay2 (F := Ideal) (iblk m c 0 t) (iblk m c 1 t) (outsAt0 m c (t.val - 1) (Nat.lt_of_le_of_lt (Nat.sub_le _ _) t.isLt)).2) (iblk m c 3 t) p q).trans ?_
  have h4 : t.val % 4 + 1 = 4 := by omega
  rw [congrFun hacc (ix2 p q), accumulator_after m c t (ix2 p q), h4, bc_block m c t q, flag_block m c t q]
  exact affineOfProduct_tile (hidden m c) (weights m c) (bcRow m c) (flagRow m c) (t.val / 4) p q

/-- WHAT A WRITE-BACK POINT WRITES (the last point of a run) is its block of the result. -/
theorem flushed_eq (c : Dev nD) (t : Fin cfg0.N) (hf : (cfg0.win 4).flush t = true) :
    (dats m 0 c).flushed 4 t = ((cfg0.win 4).blk t).view.read (Elt Ideal) (result m c) := by
  have h1 : t.val % 4 = 3 := (flush0_4 t).mp hf
  have h0 : ¬t.val % 4 = 0 := by omega
  have ht := point_lt t
  obtain ⟨-, -, -, -, -, -, -, -, e0, e1⟩ := block_numbers t
  rw [Value.flushed4_C m c t h0 h1]
  funext y
  rw [View.read_apply]
  refine (last_point_value m c t h0 h1 ((cfg0.win 4).xinj (grid0.coords t) y)).trans ?_
  refine congrArg (result m c) (funext fun a => Fin.ext ?_)
  match a with
  | ⟨0, _⟩ => show (y 0).val = win0_4.index t (0 : Fin 2) * 64 + 1 * (y 0).val; rw [e0]; omega
  | ⟨1, _⟩ => show 2048 * (t.val / 4 % 4) + (y 1).val = win0_4.index t (1 : Fin 2) * 2048 + 1 * (y 1).val; rw [e1]; omega

/-- An index of the result lies in the block of a point whose output tile is the index's column tile. -/
theorem mem_block (T : Fin cfg0.N) (i : S64x8192.Idx) (hT : T.val / 4 = (i 1).val / 2048) :
    i ∈ ((cfg0.win 4).blk T).view.set := by
  have hi0 : (i 0).val < 64 := (i 0).isLt
  have hi1 : (i 1).val < 8192 := (i 1).isLt
  obtain ⟨-, -, -, -, -, -, -, -, e0, e1⟩ := block_numbers T
  show i ∈ ((View.whole main_v26).slice (win0_4.rect T)).set
  rw [View.set_slice_whole, Rect.mem_set_unit]
  intro a
  match a with
  | ⟨0, _⟩ =>
    show win0_4.index T (0 : Fin 2) * 64 ≤ (i 0).val ∧ (i 0).val < win0_4.index T (0 : Fin 2) * 64 + 64
    rw [e0]; omega
  | ⟨1, _⟩ =>
    show win0_4.index T (1 : Fin 2) * 2048 ≤ (i 1).val ∧ (i 1).val < win0_4.index T (1 : Fin 2) * 2048 + 2048
    rw [e1, hT]; omega

/-- Every index of the result lies in the block of the last point of its column tile's run. -/
theorem covered (i : S64x8192.Idx) :
    ∃ t : Fin cfg0.N, (cfg0.win 4).flush t = true ∧ i ∈ ((cfg0.win 4).blk t).view.set := by
  have hi1 : (i 1).val < 8192 := (i 1).isLt
  have hN : cfg0.N = 16 := N_0
  have hlt : 4 * ((i 1).val / 2048) + 3 < cfg0.N := by rw [hN]; omega
  exact ⟨⟨4 * ((i 1).val / 2048) + 3, hlt⟩, (flush0_4 _).mpr (by show (4 * ((i 1).val / 2048) + 3) % 4 = 3; omega),
    mem_block ⟨4 * ((i 1).val / 2048) + 3, hlt⟩ i (by show (4 * ((i 1).val / 2048) + 3) / 4 = (i 1).val / 2048; omega)⟩

/-- THE RESULT ARRAY after the run. -/
theorem final (c : Dev nD) : (dats m 0 c).arrAt 4 cfg0.N = result m c :=
  (dats m 0 c).arrAt_eq_of_cover 4 (result m c) (flushed_eq m c) covered

/-- The run, read: the result array at `bc + (H · Wᵀ) · flag` of the arrays the region finds, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.RegionEntry.lean ====
/-
  What the region finds when it is entered.

  Before the region both programs run the same host operations on the arguments: the sparse product (a gather along
  the columns, a scaling by the values, a scatter-add into the rows) followed by `bc + h · flag` along the batch.  The
  kernel's program stores that hidden layer in the array its first window is cut from, so the region finds there the
  very term the reference computes for its own hidden layer.  The two row vectors it finds are the arguments `bc` and
  `flag` re-laid from [8192] to [1, 8192]; the weights it finds are the argument as launched.
-/
import proofs.«114506_j4913442587015_1_alg».proof.Proof.Gen.KernelIdeal.Frame
import proofs.«114506_j4913442587015_1_alg».proof.Proof.Gen.ReferenceIdeal.Read
import Idealize.ShloMosaic.Lib.StableHlo.Run

set_option maxRecDepth 16384

noncomputable section

namespace Cert.KernelIdeal.RegionEntry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The hidden layer the region finds is the reference's hidden-layer stage of the same arguments. -/
theorem hidden_layer (c : Dev nD) :
    (V m c main_v23 : S64x8192.Idx → EReal)
      = Cert.ReferenceIdeal.Read.val_main_v23 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  dsimp only [V, hostOps0]
  after_results_simp <;> rfl

/-- The row vector `bc` the region finds is the argument re-laid as one row. -/
theorem bc_row (c : Dev nD) :
    (V m c main_v24 : S1x8192.Idx → EReal) = shapeCast S1x8192 (m ((c : Thread nD τ).loc main_arg4)) shapeCasts_S8192_S1x8192 := by
  dsimp only [V, hostOps0]
  after_results
  rfl

/-- The row vector `flag` the region finds is the argument re-laid as one row. -/
theorem flag_row (c : Dev nD) :
    (V m c main_v25 : S1x8192.Idx → EReal) = shapeCast S1x8192 (m ((c : Thread nD τ).loc main_arg5)) shapeCasts_S8192_S1x8192 := by
  dsimp only [V, hostOps0]
  after_results
  rfl

end Cert.KernelIdeal.RegionEntry

end
-- ==== Proof.ReferenceResult.lean ====
/-
  The reference's result, index by index.

  After its hidden layer `H` the reference transposes the weights, contracts `H`'s second axis with the transposed
  weights' first — entry (b, n) is the sum over `k` of H (b, k) · W (n, k) —, multiplies column `n` by `flag n` and
  adds `bc n`, both vectors laid along the batch.  That is `bc + (H · Wᵀ) · flag`, with the two vectors read as rows.
-/
import proofs.«114506_j4913442587015_1_alg».proof.Proof.Gen.ReferenceIdeal.Read
import proofs.«114506_j4913442587015_1_alg».proof.Proof.TiledContraction
import Idealize.ShloMosaic.Lib.Pipeline.Value
import Idealize.ShloMosaic.Lib.ValueIdx

noncomputable section

namespace Cert.ReferenceIdeal.Result

open Cert.ReferenceIdeal Cert.ReferenceIdeal.Read Idealize.ShloMosaic Idealize.ShloMosaic.ValueIdx TiledContraction

/-- A vector of 8192 entries re-laid as one row, read at column `n`, is entry `n`. -/
theorem row_apply (x : (⟨1, ![8192]⟩ : Shape).Idx → EReal) (h : (⟨1, ![8192]⟩ : Shape).ShapeCasts ⟨2, ![1, 8192]⟩) (n : Fin 8192) :
    shapeCast (⟨2, ![1, 8192]⟩ : Shape) x h (ix2 (0 : Fin 1) n) = x (ix1 n) :=
  shapeCast_apply x h (ix2 (0 : Fin 1) n) (ix1 n) (by
    rw [Shape.rowMajor_val_two, Shape.rowMajor_val_one]; show n.val = 0 * 8192 + n.val; omega)

/-- The reference's result is `bc + (H · Wᵀ) · flag` of its own hidden-layer stage, the weights, and `bc`, `flag` as rows. -/
theorem result_eq (x0 : (⟨S64x8192, .f32⟩ : BufTy).Contents (Elt Ideal)) (x1 x2 : (⟨S73728, .i32⟩ : BufTy).Contents (Elt Ideal)) (x3 : (⟨S73728, .f32⟩ : BufTy).Contents (Elt Ideal)) (x4 x5 : (⟨S8192, .f32⟩ : BufTy).Contents (Elt Ideal)) (x6 : (⟨S8192x8192, .f32⟩ : BufTy).Contents (Elt Ideal))
    (h : (⟨1, ![8192]⟩ : Shape).ShapeCasts ⟨2, ![1, 8192]⟩) :
    val_main_v31 (F := Ideal) x0 x1 x2 x3 x4 x5 x6
      = affineOfProduct (val_main_v23 (F := Ideal) x0 x1 x2 x3 x4 x5) x6
          (shapeCast (⟨2, ![1, 8192]⟩ : Shape) x4 h) (shapeCast (⟨2, ![1, 8192]⟩ : Shape) x5 h) := by
  funext i
  obtain ⟨b, n, rfl⟩ : ∃ (b : Fin 64) (n : Fin 8192), i = ix2 b n := ⟨i 0, i 1, eq_ix2 i⟩
  have el : ∀ k : Fin 8192, lidx_main_v25 (ix2 b n) k = ix2 b k := fun k => funext fun a => Fin.ext (by
    match a with
    | ⟨0, _⟩ => rfl
    | ⟨1, _⟩ => rfl)
  have er : ∀ k : Fin 8192, idx_main_v24 (ridx_main_v25 (ix2 b n) k) = ix2 n k := fun k => funext fun a => Fin.ext (by
    match a with
    | ⟨0, _⟩ => rfl
    | ⟨1, _⟩ => rfl)
  have e4 : idx_main_v26 (idx_main_v30 (ix2 b n)) = ix1 n := funext fun a => Fin.ext (by
    match a with
    | ⟨0, _⟩ => rfl)
  have e5 : idx_main_v27 (idx_main_v28 (ix2 b n)) = ix1 n := funext fun a => Fin.ext (by
    match a with
    | ⟨0, _⟩ => rfl)
  rw [val_main_v31_apply, val_main_v30_apply, val_main_v26_apply, val_main_v29_apply, val_main_v25_apply,
    val_main_v28_apply, val_main_v27_apply]
  simp only [val_main_v24_apply, el, er, e4, e5, Ideal.addf_def, Ideal.mulf_def]
  unfold affineOfProduct
  rw [row_apply, row_apply]

end Cert.ReferenceIdeal.Result

end
-- ==== Proof.lean ====
/-
  A dense layer between two boundary corrections, tiled against untiled.

  Both programs take a batch `x` [64, 8192], a sparse matrix in coordinate form (`rows`, `cols`, `vals`), two vectors
  `bc`, `flag` [8192] and dense weights `W` [8192, 8192].  Both first form the hidden layer

      H = bc + (sparse product of x) · flag            (the same host operations, in the same order, in both),

  and then the result

      out (b, n) = bc n + (∑ k < 8192, H (b, k) · W (n, k)) · flag n.

  The reference takes the contraction whole (a transpose of `W` and one product).  The kernel walks a 4 × 4 grid: for
  each of four tiles of 2048 output columns it clears an accumulator, adds the partial product of each of four tiles
  of 2048 contracted positions — the operands narrowed to a shorter float format first, which is the identity on exact
  values —, and at the fourth writes `bc + accumulator · flag` for the tile.  Over the extended reals the four partial
  sums, added to zero in order, are the whole sum: only commutativity and associativity of addition are used, so the
  two results agree entry by entry whatever the inputs, and the finiteness of the inputs is never called on.

  The modules: the law that a sum taken tile by tile is the same sum (TiledContraction, over LibBlockSum); what the
  body stores at a point, case by case (PointLeaves), and that arithmetic at one position (BlockArithmetic); where each
  block sits in its array (BlockPlacement); the accumulator after any point as zero plus its run's partial products, the
  block a write-back writes, and that the write-backs tile the result (KernelResult); that the arrays the region finds
  are the reference's own hidden layer, `bc` and `flag` as rows, and `W` (RegionEntry); the reference's result index by
  index (ReferenceResult).  The idealization rewrote nothing, so the kernel is its own idealization.
-/
import proofs.«114506_j4913442587015_1_alg».proof.Defs
import proofs.«114506_j4913442587015_1_alg».proof.Proof.Gen.Kernel
import proofs.«114506_j4913442587015_1_alg».proof.Proof.Gen.Kernel.Skeleton
import proofs.«114506_j4913442587015_1_alg».proof.Proof.Gen.Kernel.Launch
import proofs.«114506_j4913442587015_1_alg».proof.Proof.Gen.Kernel.Points
import proofs.«114506_j4913442587015_1_alg».proof.Proof.Gen.Kernel.Frame
import proofs.«114506_j4913442587015_1_alg».proof.Proof.Gen.KernelIdeal
import proofs.«114506_j4913442587015_1_alg».proof.Proof.Gen.KernelIdeal.Skeleton
import proofs.«114506_j4913442587015_1_alg».proof.Proof.Gen.KernelIdeal.Launch
import proofs.«114506_j4913442587015_1_alg».proof.Proof.Gen.KernelIdeal.Points
import proofs.«114506_j4913442587015_1_alg».proof.Proof.Gen.KernelIdeal.Frame
import proofs.«114506_j4913442587015_1_alg».proof.Proof.Gen.ReferenceIdeal
import proofs.«114506_j4913442587015_1_alg».proof.Proof.Gen.Pre_finite_inputs
import proofs.«114506_j4913442587015_1_alg».proof.Proof.Gen.KernelIdeal.Value
import proofs.«114506_j4913442587015_1_alg».proof.Proof.Gen.ReferenceIdeal.Run
import proofs.«114506_j4913442587015_1_alg».proof.Proof.Gen.ReferenceIdeal.Read
import proofs.«114506_j4913442587015_1_alg».proof.Proof.KernelResult
import proofs.«114506_j4913442587015_1_alg».proof.Proof.RegionEntry
import proofs.«114506_j4913442587015_1_alg».proof.Proof.ReferenceResult
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Over the extended reals both programs end at `bc + (H · Wᵀ) · flag` of the same hidden layer `H`, the same weights
    and the same two vectors, from arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v31_eq, a0, a1, a2, a3, a4, a5, a6,
    Cert.ReferenceIdeal.Result.result_eq _ _ _ _ _ _ _ Cert.KernelIdeal.Facts₀.shapeCasts_S8192_S1x8192]
  show _ = TiledContraction.affineOfProduct (Cert.KernelIdeal.Gen.V m c Cert.KernelIdeal.main_v23)
    (Cert.KernelIdeal.Gen.V m c Cert.KernelIdeal.main_arg6) (Cert.KernelIdeal.Gen.V m c Cert.KernelIdeal.main_v24)
    (Cert.KernelIdeal.Gen.V m c Cert.KernelIdeal.main_v25)
  rw [Cert.KernelIdeal.RegionEntry.hidden_layer m c, Cert.KernelIdeal.RegionEntry.bc_row m c,
    Cert.KernelIdeal.RegionEntry.flag_row m c, Cert.KernelIdeal.Gen.V_main_arg6 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
